-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 20
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BlockIndex.lean ====
/-
  Where the blocks lie. The grid has ten points; at point `t` the aggregated array, the feature array and the output
  are cut at block `t` of 5000 rows (all 128 channels), while the weight matrix and the bias row are taken whole. So
  row `p` of a block is row `5000·t + p` of its array, and row `r` of the output lies in the block of point `r / 5000`:
  the ten blocks tile the 50000 rows.
-/
import proofs.«138102_j27616639713353_1_alg».proof.Proof.Gen.KernelIdeal.Launch
import proofs.«138102_j27616639713353_1_alg».proof.Proof.Gen.KernelIdeal.Points
import Idealize.ShloMosaic.Lib.Pipeline.Value
import Idealize.ShloMosaic.Lib.ValueIdx

noncomputable section

namespace Cert.KernelIdeal.LayerValue

open Cert.KernelIdeal Cert.KernelIdeal.Gen Idealize.ShloMosaic Idealize.ShloMosaic.TcCoe Idealize.SL.Sem
open Idealize.ShloMosaic.ValueIdx

theorem zero_offsets : (![0, 0] : Fin 2 → Nat) = fun _ => 0 := funext fun a => by fin_cases a <;> rfl

/-- The block indices at point `t`: the three row-blocked windows are at block `t` of the rows and block 0 of the
    channels; the weights and the bias row stay at their one block. Decided over the ten points. -/
theorem block_indices : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `p` of point `t`'s block is row `5000·t + p` of the array. -/
def row (t : Fin cfg0.N) (p : Fin 5000) : Fin 50000 :=
  ⟨t.val * 5000 + p.val, by have h : t.val < grid0.N := t.isLt; rw [N_0] at h; have := p.isLt; omega⟩

/-- Where the output block's entry `(p, q)` lies in the output array. -/
theorem out_at (t : Fin cfg0.N) (p : Fin 5000) (q : Fin 128) :
    ((cfg0.win 4).blk t).view.emb (ix2 p q) = ix2 (row t p) q := by
  obtain ⟨e40, e41, -⟩ := block_indices t
  funext a; apply Fin.ext
  match a with
  | ⟨0, _⟩ => show win0_4.index t (0 : Fin 2) * 5000 + 1 * p.val = t.val * 5000 + p.val; omega
  | ⟨1, _⟩ => show win0_4.index t (1 : Fin 2) * 128 + 1 * q.val = q.val; omega

/-- Where the aggregated block's entry `(p, k)` lies in the aggregated array. -/
theorem agg_at (t : Fin cfg0.N) (p : Fin 5000) (k : Fin 128) :
    ((cfg0.win 0).blk t).view.emb (ix2 p k) = ix2 (row t p) k := by
  obtain ⟨-, -, e00, e01, -⟩ := block_indices t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Where the feature block's entry `(p, q)` lies in the feature array. -/
theorem feat_at (t : Fin cfg0.N) (p : Fin 5000) (q : Fin 128) :
    ((cfg0.win 1).blk t).view.emb (ix2 p q) = ix2 (row t p) q := by
  obtain ⟨-, -, -, -, e10, e11, -⟩ := block_indices t
  funext a; apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega

/-- The weight block is the whole matrix. -/
theorem weight_at (t : Fin cfg0.N) (q k : Fin 128) :
    ((cfg0.win 2).blk t).view.emb (ix2 q k) = ix2 q k := by
  obtain ⟨-, -, -, -, -, -, e20, e21, -⟩ := block_indices t
  funext a; apply Fin.ext
  match a with
  | ⟨0, _⟩ => show win0_2.index t (0 : Fin 2) * 128 + 1 * q.val = q.val; omega
  | ⟨1, _⟩ => show win0_2.index t (1 : Fin 2) * 128 + 1 * k.val = k.val; omega

/-- The bias block is the whole bias row. -/
theorem bias_at (t : Fin cfg0.N) (q : Fin 128) :
    ((cfg0.win 3).blk t).view.emb (ix2 (0 : Fin 1) q) = ix2 (0 : Fin 1) q := by
  obtain ⟨-, -, -, -, -, -, -, -, e30, e31⟩ := block_indices t
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- An index of the output array is in point `t`'s block iff each coordinate is in the block's range on its axis. -/
theorem mem_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v11).slice (win0_4.rect t)).set ↔ _
  rw [View.set_slice_whole, Rect.mem_set_unit]
  exact Iff.rfl

/-- Every entry of the output array is written by the point that holds its row. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hlt : (i 0).val / 5000 < grid0.N := by rw [N_0]; omega
  obtain ⟨e40, e41, -⟩ := block_indices ⟨(i 0).val / 5000, hlt⟩
  refine ⟨⟨(i 0).val / 5000, hlt⟩, flush0_4 _, ?_⟩
  rw [mem_block]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, hlt⟩ (1 : Fin 2) * 128 ≤ (i 1).val
      ∧ (i 1).val < win0_4.index ⟨(i 0).val / 5000, hlt⟩ (1 : Fin 2) * 128 + 128
    rw [e41]
    omega

end Cert.KernelIdeal.LayerValue

end
-- ==== Proof.LibDot.lean ====
/-
  A two-axis matrix product read at an index, at the extended reals. For dimension numbers that contract the
  left operand's second axis with the right operand's first and have no batch axis, the kernel's matrix product into
  a zero accumulator and the host's general dot product are both, at row `p` and column `q`, the sum over the
  contracted coordinate `k` of the left operand at `(p, k)` times the right operand at `(k, q)`.
-/
import Idealize.ShloMosaic.PureOps.Ideal.Laws
import Idealize.ShloMosaic.Lib.ValueIdx

noncomputable section

open scoped BigOperators

namespace Cert.LibDot

open Idealize.ShloMosaic Idealize.ShloMosaic.ValueIdx

variable {A K B : ℕ} {φ₁ φ₂ : FTy}

/-- Reading an index at two equal positions gives equal coordinates. -/
private theorem coord_congr {s : Shape} (j : s.Idx) (a b : Nat) (ha : a < s.rank) (hb : b < s.rank) (h : a = b) :
    (j ⟨a, ha⟩).val = (j ⟨b, hb⟩).val := by subst h; rfl

/-- The left operand's index has the output's row. -/
theorem lhsIdx_row (d : DotDims ⟨2, ![A, K]⟩ ⟨2, ![K, B]⟩ ⟨2, ![A, B]⟩)
    (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's index has the output's column. -/
theorem rhsIdx_col (d : DotDims ⟨2, ![A, K]⟩ ⟨2, ![K, B]⟩ ⟨2, ![A, B]⟩)
    (hlb : d.lhsBatch = []) (hln : d.lhsNonContracting = [0])
    (hrb : d.rhsBatch = []) (hrn : d.rhsNonContracting = [1])
    (j : (⟨2, ![A, B]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction sum re-indexed by the contracted coordinate. -/
theorem plain_sum (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_col d hlb hln hrb hrn _ _)
  rw [el, er]

/-- The kernel's matrix product into a zero accumulator, at `(p, q)`. -/
theorem matmul_zero_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    matmul d prec l r (constant (F := Ideal) ⟨2, ![A, B]⟩ .f32 0x00000000#32) (ix2 p q) = ∑ k : Fin K, l (ix2 p k) * r (ix2 k q) := by
  simp only [matmul]
  rw [Ideal.matmul_constant_zero_apply]
  exact plain_sum d hlb hln hlc hrb hrn hrc hr hs l r p q

/-- The host's general dot product, at `(p, q)`. -/
theorem dotGeneral_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    Host.dotGeneral d prec l r (ix2 p q) = ∑ k : Fin K, l (ix2 p k) * r (ix2 k q) := by
  simp only [Host.dotGeneral]
  rw [Ideal.dotGeneral_apply]
  exact plain_sum d hlb hln hlc hrb hrn hrc hr hs l r p q

end Cert.LibDot

end
-- ==== Proof.BlockPayload.lean ====
/-
  What the kernel body computes from the four blocks it loads, read at one entry. The body multiplies a block of 5000
  aggregated rows by the transposed weight matrix (on narrowed copies of both, which at the extended reals are the same
  numbers), adds the bias row to every row, clips at zero and adds the block of the nodes' own features. At row `p` of the
  block and channel `q` that is

      max (Σ_k a(p, k) · w(q, k) + b(0, q), 0) + f(p, q).
-/
import proofs.«138102_j27616639713353_1_alg».proof.Proof.Gen.KernelIdeal.Skeleton
import proofs.«138102_j27616639713353_1_alg».proof.Proof.LibDot
import Idealize.ShloMosaic.Lib.ValueLayout

noncomputable section

open scoped BigOperators

namespace Cert.KernelIdeal.Block

open Cert.KernelIdeal Cert.KernelIdeal.Gen Idealize.ShloMosaic Idealize.ShloMosaic.ValueIdx

/-- The body's stored value at row `p`, channel `q` of the block. -/
theorem payload_apply (a : Vec Ideal S5000x128 .f32) (w : Vec Ideal S128x128 .f32) (b : Vec Ideal S1x128 .f32)
    (f : Vec Ideal S5000x128 .f32) (p : Fin 5000) (q : Fin 128) :
    k0_pay1 (F := Ideal) a w b f (ix2 p q)
      = max ((∑ k : Fin 128, a (ix2 p k) * w (ix2 q k)) + b (ix2 (0 : Fin 1) q)) (Ideal.ofBits .f32 0x00000000#32)
        + f (ix2 p q) := by
  unfold k0_pay1
  rw [addf_apply, maximumf_apply, addf_apply, broadcast_apply, broadcastTo_1b_ab_apply, shapeCast_self,
    Cert.LibDot.matmul_zero_apply _ _ rfl rfl rfl rfl rfl rfl rfl rfl]
  rw [shapeCast_self]
  have ht : ∀ (x : FVec Ideal S128x128 .bf16) (k : Fin 128),
      transpose S128x128 [1, 0] x transposes_S128x128_p1_0_S128x128 (ix2 k q) = x (ix2 q k) :=
    fun x k => transpose_ix2_apply x transposes_S128x128_p1_0_S128x128 k q
  simp only [ht, truncf_apply, Ideal.ofBits_def]

end Cert.KernelIdeal.Block

end
-- ==== Proof.NodeUpdate.lean ====
/-
  One layer of a graph convolution, after the neighbour sums have been taken. Every node's aggregated row goes through a
  linear map, a bias is added, negative entries are clipped to zero, and the node's own feature row is added back. For
  node `p` and output channel `q`:

      out(p, q) = max (Σ_k agg(p, k) · W(q, k) + b(q), 0) + feature(p, q).

  The weight matrix is used transposed: channel `q` reads row `q` of `W`. Everything is an extended real, and the formula
  uses only sums, products and a maximum, so it is meaningful whatever the entries are.
-/
import Idealize.ShloMosaic.PureOps.Ideal
import Idealize.ShloMosaic.Lib.ValueIdx

noncomputable section

open scoped BigOperators

namespace Cert.NodeUpdate

open Idealize.ShloMosaic Idealize.ShloMosaic.ValueIdx

/-- 50000 nodes, 128 channels each. -/
abbrev Nodes : Shape := ⟨2, ![50000, 128]⟩
/-- The square weight matrix: one row per output channel. -/
abbrev Weights : Shape := ⟨2, ![128, 128]⟩
/-- One bias per output channel. -/
abbrev Bias : Shape := ⟨1, ![128]⟩

/-- The value of node `p`, channel `q`: the aggregated row `p` against row `q` of the weights, plus the bias of `q`,
    clipped below at zero, plus the node's own feature. -/
def entry (agg feature : FVec Ideal Nodes .f32) (W : FVec Ideal Weights .f32) (b : FVec Ideal Bias .f32)
    (p : Fin 50000) (q : Fin 128) : EReal :=
  max ((∑ k : Fin 128, agg (ix2 p k) * W (ix2 q k)) + b (ix1 q)) (Ideal.ofBits .f32 0x00000000#32) + feature (ix2 p q)

/-- The layer's output array. -/
def layer (agg feature : FVec Ideal Nodes .f32) (W : FVec Ideal Weights .f32) (b : FVec Ideal Bias .f32) :
    FVec Ideal Nodes .f32 :=
  fun i => entry agg feature W b (i 0) (i 1)

/-- The output array read at node `p`, channel `q`. -/
theorem layer_apply (agg feature : FVec Ideal Nodes .f32) (W : FVec Ideal Weights .f32) (b : FVec Ideal Bias .f32)
    (p : Fin 50000) (q : Fin 128) : layer agg feature W b (ix2 p q) = entry agg feature W b p q := rfl

end Cert.NodeUpdate

end
-- ==== Proof.LayerValue.lean ====
/-
  The kernel's output array, whole. At point `t` the body reads block `t` of the aggregated array and of the feature
  array, the whole weight matrix and the bias row, and stores `max (a · wᵀ + b, 0) + f` of them. Since row `p` of a block
  is row `5000·t + p` of its array, that is block `t` of the layer of the four arrays. Each step is proved for arbitrary
  arrays and blocks and only then used for the arrays the region finds, which are never opened here. The ten blocks tile
  the output, which therefore is the layer everywhere.
-/
import proofs.«138102_j27616639713353_1_alg».proof.Proof.Gen.KernelIdeal.Value
import proofs.«138102_j27616639713353_1_alg».proof.Proof.BlockIndex
import proofs.«138102_j27616639713353_1_alg».proof.Proof.BlockPayload
import proofs.«138102_j27616639713353_1_alg».proof.Proof.NodeUpdate

noncomputable section

open scoped BigOperators

namespace Cert.KernelIdeal.LayerValue

open Cert.KernelIdeal Cert.KernelIdeal.Gen Idealize.ShloMosaic Idealize.ShloMosaic.TcCoe Idealize.SL.Sem
open Idealize.ShloMosaic.ValueIdx
open Idealize.ShloMosaic.Pipeline (Dat)

/-- A bias row `[1, 128]` as a vector of 128 biases. -/
def rowVec (B : FVec Ideal S1x128 .f32) : FVec Ideal S128 .f32 := fun j => B (ix2 (0 : Fin 1) (j 0))

/-! ## Any array read through a point's block -/

/-- Block `t` of the first window's array, at `(p, k)`, is the array at row `5000·t + p`. -/
theorem read_agg (A : FVec Ideal S50000x128 .f32) (t : Fin cfg0.N) (p : Fin 5000) (k : Fin 128) :
    ((cfg0.win 0).blk t).view.read (Elt Ideal) A (ix2 p k) = A (ix2 (row t p) k) :=
  congrArg A (agg_at t p k)

/-- Block `t` of the second window's array, at `(p, q)`, is the array at row `5000·t + p`. -/
theorem read_feat (X : FVec Ideal S50000x128 .f32) (t : Fin cfg0.N) (p : Fin 5000) (q : Fin 128) :
    ((cfg0.win 1).blk t).view.read (Elt Ideal) X (ix2 p q) = X (ix2 (row t p) q) :=
  congrArg X (feat_at t p q)

/-- The third window's block is its whole array. -/
theorem read_weight (W : FVec Ideal S128x128 .f32) (t : Fin cfg0.N) (q k : Fin 128) :
    ((cfg0.win 2).blk t).view.read (Elt Ideal) W (ix2 q k) = W (ix2 q k) :=
  congrArg W (weight_at t q k)

/-- The fourth window's block is its whole array. -/
theorem read_bias (B : FVec Ideal S1x128 .f32) (t : Fin cfg0.N) (q : Fin 128) :
    ((cfg0.win 3).blk t).view.read (Elt Ideal) B (ix2 (0 : Fin 1) q) = B (ix2 (0 : Fin 1) q) :=
  congrArg B (bias_at t q)

/-! ## The body's value on any blocks -/

/-- For any four arrays and any four blocks that hold, at the entries the body reads for `(p, q)`, the arrays' entries
    of array row `r`: the body's value at `(p, q)` is the layer of the arrays at `(r, q)`. -/
theorem block_value (A X : FVec Ideal S50000x128 .f32) (W : FVec Ideal S128x128 .f32) (B : FVec Ideal S1x128 .f32)
    (a x : Vec Ideal S5000x128 .f32) (w : Vec Ideal S128x128 .f32) (b : Vec Ideal S1x128 .f32)
    (r : Fin 50000) (p : Fin 5000) (q : Fin 128)
    (ha : ∀ k : Fin 128, a (ix2 p k) = A (ix2 r k)) (hw : ∀ k : Fin 128, w (ix2 q k) = W (ix2 q k))
    (hb : b (ix2 (0 : Fin 1) q) = B (ix2 (0 : Fin 1) q)) (hx : x (ix2 p q) = X (ix2 r q)) :
    k0_pay1 (F := Ideal) a w b x (ix2 p q) = Cert.NodeUpdate.layer A X W (rowVec B) (ix2 r q) := by
  rw [Cert.KernelIdeal.Block.payload_apply, Cert.NodeUpdate.layer_apply, hb, hx]
  unfold Cert.NodeUpdate.entry rowVec
  simp only [ha, hw]

/-- For any four blocks and any array `G` of which the body's value at each `(p, q)` is the entry at row `5000·t + p`:
    what the body leaves in the output's buffer, cut to the block, is block `t` of `G`. -/
theorem cut_eq_block (x0 x1 : Vec Ideal S5000x128 .f32) (x2 : Vec Ideal S128x128 .f32) (x3 : Vec Ideal S1x128 .f32)
    (t : Fin cfg0.N) (G : FVec Ideal S50000x128 .f32)
    (h : ∀ (p : Fin 5000) (q : Fin 128), k0_pay1 (F := Ideal) x0 x2 x3 x1 (ix2 p q) = G (ix2 (row t p) q)) :
    (cfg0.win 4).cut (grid0.coords t) (out0_4 x0 x1 x2 x3) = ((cfg0.win 4).blk t).view.read (Elt Ideal) G := by
  unfold out0_4
  rw [View.canon_unit_zero zero_offsets]
  simp only [View.ld_unit_zero (S := S5000x128) zero_offsets, View.ld_unit_zero (S := S128x128) zero_offsets,
    View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  show k0_pay1 (F := Ideal) x0 x2 x3 x1 (ix2 p q) = G (((cfg0.win 4).blk t).view.emb (ix2 p q))
  rw [out_at t p q]
  exact h p q

/-! ## The arrays the region finds -/

variable (m : (ℓ : Loc nD τ sig) → Buf (Elt Ideal) ℓ) (ρ : Dev nD → PrngReg)

theorem agg_block (c : Dev nD) (t : Fin cfg0.N) (p : Fin 5000) (k : Fin 128) :
    iblk m c 0 t (ix2 p k) = (V m c (Pipeline.arrRef spec0 0) : FVec Ideal S50000x128 .f32) (ix2 (row t p) k) := by
  unfold iblk
  exact read_agg (V m c (Pipeline.arrRef spec0 0)) t p k

theorem feat_block (c : Dev nD) (t : Fin cfg0.N) (p : Fin 5000) (q : Fin 128) :
    iblk m c 1 t (ix2 p q) = (V m c (Pipeline.arrRef spec0 1) : FVec Ideal S50000x128 .f32) (ix2 (row t p) q) := by
  unfold iblk
  exact read_feat (V m c (Pipeline.arrRef spec0 1)) t p q

theorem weight_block (c : Dev nD) (t : Fin cfg0.N) (q k : Fin 128) :
    iblk m c 2 t (ix2 q k) = (V m c (Pipeline.arrRef spec0 2) : FVec Ideal S128x128 .f32) (ix2 q k) := by
  unfold iblk
  exact read_weight (V m c (Pipeline.arrRef spec0 2)) t q k

theorem bias_block (c : Dev nD) (t : Fin cfg0.N) (q : Fin 128) :
    iblk m c 3 t (ix2 (0 : Fin 1) q) = (V m c (Pipeline.arrRef spec0 3) : FVec Ideal S1x128 .f32) (ix2 (0 : Fin 1) q) := by
  unfold iblk
  exact read_bias (V m c (Pipeline.arrRef spec0 3)) t q

/-- What point `t` writes back is its block of the layer of the four arrays the region finds under the input windows. -/
theorem flushed_eq (c : Dev nD) (t : Fin cfg0.N) :
    (dats m 0 c).flushed 4 t = ((cfg0.win 4).blk t).view.read (Elt Ideal)
      (Cert.NodeUpdate.layer (V m c (Pipeline.arrRef spec0 0)) (V m c (Pipeline.arrRef spec0 1))
        (V m c (Pipeline.arrRef spec0 2)) (rowVec (V m c (Pipeline.arrRef spec0 3)))) :=
  (Value.flushed4 m c t).trans
    (cut_eq_block (iblk m c 0 t) (iblk m c 1 t) (iblk m c 2 t) (iblk m c 3 t) t
      (Cert.NodeUpdate.layer (V m c (Pipeline.arrRef spec0 0)) (V m c (Pipeline.arrRef spec0 1))
        (V m c (Pipeline.arrRef spec0 2)) (rowVec (V m c (Pipeline.arrRef spec0 3))))
      (fun p q => block_value (V m c (Pipeline.arrRef spec0 0)) (V m c (Pipeline.arrRef spec0 1))
        (V m c (Pipeline.arrRef spec0 2)) (V m c (Pipeline.arrRef spec0 3))
        (iblk m c 0 t) (iblk m c 1 t) (iblk m c 2 t) (iblk m c 3 t) (row t p) p q
        (fun k => agg_block m c t p k) (fun k => weight_block m c t q k) (bias_block m c t q) (feat_block m c t p q)))

/-- The output array after the run is the layer of the arrays the region finds under the input windows. -/
theorem final (c : Dev nD) :
    (dats m 0 c).arrAt 4 cfg0.N
      = Cert.NodeUpdate.layer (V m c (Pipeline.arrRef spec0 0)) (V m c (Pipeline.arrRef spec0 1))
          (V m c (Pipeline.arrRef spec0 2)) (rowVec (V m c (Pipeline.arrRef spec0 3))) :=
  (dats m 0 c).arrAt_eq_of_cover 4 _ (fun t _ => flushed_eq m c t) covered

end Cert.KernelIdeal.LayerValue

end
-- ==== Proof.KernelRun.lean ====
/-
  The kernel's run, with its output named. Before the region the program takes the neighbour sums (a gather of the
  source rows and a scatter-add into the destination rows) and reshapes the bias vector to one row; the region then finds
  the features and the weights as launched, the bias row holding the bias vector, and the aggregated array holding exactly
  the neighbour sums the reference program computes, since the two programs take those sums by the same operations on
  the same arguments. So the output array is the layer of the reference's neighbour sums, the features, the weights and
  the bias.
-/
import proofs.«138102_j27616639713353_1_alg».proof.Proof.LayerValue
import proofs.«138102_j27616639713353_1_alg».proof.Proof.Gen.ReferenceIdeal.Read
import Idealize.ShloMosaic.Lib.StableHlo.Run
import Idealize.ShloMosaic.Lib.ValueLayout

noncomputable section

namespace Cert.KernelIdeal.LayerValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The aggregated array the region finds is the reference's neighbour-sum stage of the same three arguments. -/
theorem agg_found (c : Dev nD) :
    (V m c main_v9 : FVec Ideal S50000x128 .f32)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results
  rfl

/-- The bias row the region finds is the bias vector cast to one row. -/
theorem bias_row_found (c : Dev nD) :
    (V m c main_v10 : FVec Ideal S1x128 .f32)
      = fun i => shapeCast S1x128 (m ((c : Thread nD τ).loc main_arg4)) shapeCasts_S128_S1x128 i := by
  dsimp only [Gen.V, Gen.hostOps0]
  after_results
  rfl

/-- A vector cast to one row and read back as a vector is the vector. -/
theorem rowVec_cast (v : FVec Ideal S128 .f32) :
    rowVec (fun i => shapeCast S1x128 v shapeCasts_S128_S1x128 i) = v := by
  funext j
  obtain ⟨q, rfl⟩ : ∃ q : Fin 128, j = ix1 q := ⟨j 0, eq_ix1 j⟩
  exact shapeCast_a_1a_apply v shapeCasts_S128_S1x128 (0 : Fin 1) q

/-- Read back as a vector, the bias row the region finds is the bias vector. -/
theorem bias_found (c : Dev nD) :
    rowVec (V m c main_v10 : FVec Ideal S1x128 .f32) = m ((c : Thread nD τ).loc main_arg4) :=
  (congrArg rowVec (bias_row_found m c)).trans (rowVec_cast (m ((c : Thread nD τ).loc main_arg4)))

/-- The layer of what the region finds is the layer of the reference's neighbour sums and the three arguments. -/
theorem layer_found (c : Dev nD) :
    Cert.NodeUpdate.layer (V m c (Pipeline.arrRef spec0 0)) (V m c (Pipeline.arrRef spec0 1))
        (V m c (Pipeline.arrRef spec0 2)) (rowVec (V m c (Pipeline.arrRef spec0 3)))
      = Cert.NodeUpdate.layer
          (Cert.ReferenceIdeal.Read.val_main_v9 (F := Ideal) (m ((c : Thread nD τ).loc main_arg0))
            (m ((c : Thread nD τ).loc main_arg1)) (m ((c : Thread nD τ).loc main_arg2)))
          (m ((c : Thread nD τ).loc main_arg0)) (m ((c : Thread nD τ).loc main_arg3)) (m ((c : Thread nD τ).loc main_arg4)) := by
  have h0 : (V m c (Pipeline.arrRef spec0 0) : FVec Ideal S50000x128 .f32)
      = Cert.ReferenceIdeal.Read.val_main_v9 (F := Ideal) (m ((c : Thread nD τ).loc main_arg0))
          (m ((c : Thread nD τ).loc main_arg1)) (m ((c : Thread nD τ).loc main_arg2)) := agg_found m c
  have h1 : (V m c (Pipeline.arrRef spec0 1) : FVec Ideal S50000x128 .f32) = m ((c : Thread nD τ).loc main_arg0) :=
    V_main_arg0 m c
  have h2 : (V m c (Pipeline.arrRef spec0 2) : FVec Ideal S128x128 .f32) = m ((c : Thread nD τ).loc main_arg3) :=
    V_main_arg3 m c
  have h3 : rowVec (V m c (Pipeline.arrRef spec0 3) : FVec Ideal S1x128 .f32) = m ((c : Thread nD τ).loc main_arg4) :=
    bias_found m c
  exact congr (congr (congr (congrArg Cert.NodeUpdate.layer h0) h1) h2) h3

/-- Every weakly fair execution of the kernel program ends with the output array at the layer of the reference's
    neighbour sums, the features, the weights and the bias, and with the arguments unchanged. -/
theorem run : θ_run defs (onTc (τ := τ) (main (F := Ideal))) ⟨m, fun _ => 0, ρ⟩ fun r => ∀ c : Dev nD,
      r.2.mem ((c : Thread nD τ).loc main_v11)
        = Cert.NodeUpdate.layer
            (Cert.ReferenceIdeal.Read.val_main_v9 (F := Ideal) (m ((c : Thread nD τ).loc main_arg0))
              (m ((c : Thread nD τ).loc main_arg1)) (m ((c : Thread nD τ).loc main_arg2)))
            (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (final m c)).trans (layer_found m c), (h c).2⟩)
    (Value.run_blocks m ρ)

end Cert.KernelIdeal.LayerValue

end
-- ==== Proof.RefLayer.lean ====
/-
  The reference program's result is the layer of `NodeUpdate`. After the neighbour sums the reference transposes the
  weight matrix, takes the matrix product, broadcasts the bias over the rows, adds it, clips at zero and adds the
  features. Read at node `p`, channel `q`, the product is the sum over `k` of the aggregated entry `(p, k)` times the
  transposed weight at `(k, q)`, which is the weight at `(q, k)`; the broadcast bias is the bias of `q`. That is the
  layer's entry, term for term.
-/
import proofs.«138102_j27616639713353_1_alg».proof.Proof.Gen.ReferenceIdeal.Read
import proofs.«138102_j27616639713353_1_alg».proof.Proof.NodeUpdate

noncomputable section

open scoped BigOperators

namespace Cert.ReferenceIdeal.RefLayer

open Cert.ReferenceIdeal Cert.ReferenceIdeal.Read Idealize.ShloMosaic Idealize.ShloMosaic.ValueIdx

/-- The reference's last stage is the layer applied to its own neighbour sums, the features, the weights and the bias. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v16 (F := Ideal) x0 x1 x2 x3 x4 = Cert.NodeUpdate.layer (val_main_v9 (F := Ideal) x0 x1 x2) x0 x3 x4 := by
  funext i
  obtain ⟨p, q, rfl⟩ : ∃ (p : Fin 50000) (q : Fin 128), i = ix2 p q := ⟨i 0, i 1, eq_ix2 i⟩
  have el : ∀ k : Fin 128, lidx_main_v11 (ix2 p q) k = ix2 p k := fun k => funext fun a => Fin.ext (by
    match a with
    | ⟨0, _⟩ => rfl
    | ⟨1, _⟩ => rfl)
  have er : ∀ k : Fin 128, idx_main_v10 (ridx_main_v11 (ix2 p q) k) = ix2 q k := fun k => funext fun a => Fin.ext (by
    match a with
    | ⟨0, _⟩ => rfl
    | ⟨1, _⟩ => rfl)
  have eb : idx_main_v12 (idx_main_v13 (ix2 p q)) = ix1 q := funext fun a => Fin.ext (by
    match a with
    | ⟨0, _⟩ => rfl)
  rw [Cert.NodeUpdate.layer_apply, val_main_v16_apply, val_main_v15_apply, val_main_v14_apply, val_main_v11_apply,
    val_main_v13_apply, val_main_v12_apply, val_main_call0_v0_apply, val_main_call0_cst_apply]
  simp only [val_main_v10_apply, el, er, eb]
  rfl

end Cert.ReferenceIdeal.RefLayer

end
-- ==== Proof.lean ====
/- One graph-convolution layer, kernel against reference, on the extended reals.

   Both programs first take, for every node, the sum of the feature rows of its in-neighbours (a gather of the source rows
   and a scatter-add into the destination rows), by the same operations on the same arguments. The reference then
   computes `max (agg · Wᵀ + b, 0) + feature` with a whole matrix product; the kernel computes the same expression on ten
   blocks of 5000 rows, each block against the whole weight matrix and the one bias row. At node `p`, channel `q` both are

       max (Σ_k agg(p, k) · W(q, k) + b(q), 0) + feature(p, q)      (Proof/NodeUpdate.lean)

   with the sum over `k` in the same order on both sides, so no law of the extended reals is needed beyond reading each
   operation at an index, and the precondition (finite inputs) is never opened. The kernel narrows its matrix operands
   before the product, which changes no extended real, and the idealized kernel is the kernel's own text, so the
   preservation claim is trivial.

   Proof/RefLayer.lean: the reference's result is the layer. Proof/BlockPayload.lean: the kernel body's stored value at an
   entry. Proof/LayerValue.lean: the ten blocks tile the output, which is the layer of what the region finds.
   Proof/KernelRun.lean: what the region finds, and the kernel's run. Proof/LibDot.lean: a two-axis matrix product read at
   an entry. -/
import proofs.«138102_j27616639713353_1_alg».proof.Defs
import proofs.«138102_j27616639713353_1_alg».proof.Proof.KernelRun
import proofs.«138102_j27616639713353_1_alg».proof.Proof.RefLayer
import proofs.«138102_j27616639713353_1_alg».proof.Proof.Gen.Kernel
import proofs.«138102_j27616639713353_1_alg».proof.Proof.Gen.Kernel.Frame
import proofs.«138102_j27616639713353_1_alg».proof.Proof.Gen.KernelIdeal
import proofs.«138102_j27616639713353_1_alg».proof.Proof.Gen.KernelIdeal.Frame
import proofs.«138102_j27616639713353_1_alg».proof.Proof.Gen.KernelIdeal.Value
import proofs.«138102_j27616639713353_1_alg».proof.Proof.Gen.ReferenceIdeal
import proofs.«138102_j27616639713353_1_alg».proof.Proof.Gen.ReferenceIdeal.Run
import proofs.«138102_j27616639713353_1_alg».proof.Proof.Gen.ReferenceIdeal.Read
import proofs.«138102_j27616639713353_1_alg».proof.Proof.Gen.Pre_finite_inputs
import Idealize.ShloMosaic.Adequacy
import Idealize.ShloMosaic.Init

noncomputable section

namespace Cert.Proof

open Idealize.ShloMosaic Idealize.SL.Sem

/-- The kernel program runs to the end without a fault and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals, so there is nothing to preserve. -/
theorem preserves : Cert.preserves_Kernel_KernelIdeal := trivial

/-- From memories that agree on the five arguments, the kernel's output array and the reference's result are the same
    array: the layer of the neighbour sums, the features, the weights and the bias. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v16_eq _ _ _ _ _).trans (Cert.ReferenceIdeal.RefLayer.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
